-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x21x512x512 : Shape := ⟨4, ![8, 21, 512, 512]⟩
abbrev S_ : Shape := ⟨0, ![]⟩

class Facts : Prop where
  bcast_S_S8x21x512x512 : S_.BroadcastsInDim S8x21x512x512 (![] : Fin 0 → Fin S8x21x512x512.rank)
  reducesTo_S8x21x512x512_S_d0_1_2_3 : S8x21x512x512.ReducesTo [0, 1, 2, 3] S_
  h_S_ : 0 < S_.numel

variable [Facts]

def fn {F : FTy → Type} [FloatOps F] (main_arg0 : FVec F S8x21x512x512 .f32) (main_arg1 : FVec F S8x21x512x512 .f32) : IVec S_ 1 :=
  let main_v0 : FVec F S8x21x512x512 .f32 := Host.absf main_arg0
  let main_cst : FVec F S_ .f32 := constant S_ .f32 0x7F800000#32
  let main_v1 : FVec F S8x21x512x512 .f32 := broadcastInDim S8x21x512x512 ![] bcast_S_S8x21x512x512 main_cst
  let main_v2 : IVec S8x21x512x512 1 := cmpf .olt main_v0 main_v1
  let main_c : IVec S_ 1 := constantI S_ 1 1#1
  let main_v3 : IVec S_ 1 := (fun x v => Host.reduce IntOp.andi x v reducesTo_S8x21x512x512_S_d0_1_2_3 h_S_) main_v2 main_c
  let main_v4 : FVec F S8x21x512x512 .f32 := Host.absf main_arg1
  let main_cst_0 : FVec F S_ .f32 := constant S_ .f32 0x7F800000#32
  let main_v5 : FVec F S8x21x512x512 .f32 := broadcastInDim S8x21x512x512 ![] bcast_S_S8x21x512x512 main_cst_0
  let main_v6 : IVec S8x21x512x512 1 := cmpf .olt main_v4 main_v5
  let main_c_1 : IVec S_ 1 := constantI S_ 1 1#1
  let main_v7 : IVec S_ 1 := (fun x v => Host.reduce IntOp.andi x v reducesTo_S8x21x512x512_S_d0_1_2_3 h_S_) main_v6 main_c_1
  let main_v8 : IVec S_ 1 := andi main_v3 main_v7
  main_v8
-- ==== Kernel.lean ====
abbrev S8x21x512x512 : Shape := ⟨4, ![8, 21, 512, 512]⟩
abbrev S8x7x1x3 : Shape := ⟨4, ![8, 7, 1, 3]⟩
abbrev S1x3x512x512 : Shape := ⟨4, ![1, 3, 512, 512]⟩
abbrev S1x1x1x3 : Shape := ⟨4, ![1, 1, 1, 3]⟩
abbrev S3x512x512 : Shape := ⟨3, ![3, 512, 512]⟩
abbrev S3x512 : Shape := ⟨2, ![3, 512]⟩
abbrev S3x512x1 : Shape := ⟨3, ![3, 512, 1]⟩
abbrev S3 : Shape := ⟨1, ![3]⟩
abbrev S8x21 : Shape := ⟨2, ![8, 21]⟩
abbrev S_ : Shape := ⟨0, ![]⟩
abbrev S8 : Shape := ⟨1, ![8]⟩

abbrev nBuf : Space → Nat
  | .hbm => 22
  | .vmem => 6
  | .smem => 0
  | _ => 0

abbrev bufTy : (tb : Table) → Fin (tcTables nBuf tb) → BufTy
  | .hbm, ⟨0, _⟩ => ⟨S8x21x512x512, .f32⟩
  | .hbm, ⟨1, _⟩ => ⟨S8x21x512x512, .f32⟩
  | .hbm, ⟨2, _⟩ => ⟨S8x7x1x3, .f32⟩
  | .hbm, ⟨3, _⟩ => ⟨S8x21, .f32⟩
  | .hbm, ⟨4, _⟩ => ⟨S8x21, .f32⟩
  | .hbm, ⟨5, _⟩ => ⟨S8x21, .f32⟩
  | .hbm, ⟨6, _⟩ => ⟨S_, .f32⟩
  | .hbm, ⟨7, _⟩ => ⟨S8x21, .f32⟩
  | .hbm, ⟨8, _⟩ => ⟨S8x21, .f32⟩
  | .hbm, ⟨9, _⟩ => ⟨S_, .f32⟩
  | .hbm, ⟨10, _⟩ => ⟨S8x21, .f32⟩
  | .hbm, ⟨11, _⟩ => ⟨S8x21, .f32⟩
  | .hbm, ⟨12, _⟩ => ⟨S_, .f32⟩
  | .hbm, ⟨13, _⟩ => ⟨S8x21, .f32⟩
  | .hbm, ⟨14, _⟩ => ⟨S8x21, .f32⟩
  | .hbm, ⟨15, _⟩ => ⟨S8x21, .f32⟩
  | .hbm, ⟨16, _⟩ => ⟨S_, .f32⟩
  | .hbm, ⟨17, _⟩ => ⟨S8, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S1x1x1x3, .f32⟩
  | .local _ .vmem, ⟨5, _⟩ => ⟨S1x1x1x3, .f32⟩
  | _, _ => ⟨S8x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  reduces_S3x512x512_S3x512 : S3x512x512.Reduces [2] S3x512
  shapeCasts_S3x512_S3x512x1 : S3x512.ShapeCasts S3x512x1
  broadcasts_S3x512x1_S3x512x512 : S3x512x1.Broadcasts S3x512x512
  reduces_S3x512_S3 : S3x512.Reduces [1] S3
  shapeCasts_S3_S1x1x1x3 : S3.ShapeCasts S1x1x1x3
  inb_S1x1x1x3_S1x1x1x3_0_0_0_0 : ∀ a, (![0, 0, 0, 0] : Fin 4 → Nat) a + S1x1x1x3.size a ≤ S1x1x1x3.size a
  h_S1x1x1x3 : 0 < S1x1x1x3.numel
  shapeCasts_S8x7x1x3_S8x21 : S8x7x1x3.ShapeCasts S8x21
  bcast_S_S8x21 : S_.BroadcastsInDim S8x21 (![] : Fin 0 → Fin S8x21.rank)
  reducesTo_S8x21_S8_d1 : S8x21.ReducesTo [1] S8
  h_S_ : 0 < S_.numel
  reducesTo_S8_S_d0 : S8.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S8x21x512x512.size a
  hwx0_0 : ∀ i : grid0.Coords, EltTy.bits .f32 = 32 ∨ (Rect.block (s := S8x21x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S8x21x512x512.size a
  hwx0_1 : ∀ i : grid0.Coords, EltTy.bits .f32 = 32 ∨ (Rect.block (s := S8x21x512x512) S1x3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x3.size a ≤ S8x7x1x3.size a
  hwx0_2 : ∀ i : grid0.Coords, EltTy.bits .f32 = 32 ∨ (Rect.block (s := S8x7x1x3) S1x1x1x3.size (cc0_transform_2 i) (hinb0_2 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x21x512x512 : Shape := ⟨4, ![8, 21, 512, 512]⟩
abbrev S_ : Shape := ⟨0, ![]⟩
abbrev S8x21x512 : Shape := ⟨3, ![8, 21, 512]⟩
abbrev S8x21x512x1 : Shape := ⟨4, ![8, 21, 512, 1]⟩
abbrev S8x21 : Shape := ⟨2, ![8, 21]⟩
abbrev S8 : Shape := ⟨1, ![8]⟩

abbrev nBuf : Space → Nat
  | .hbm => 44
  | .vmem => 0
  | .smem => 0
  | _ => 0

abbrev bufTy : (tb : Table) → Fin (tcTables nBuf tb) → BufTy
  | .hbm, ⟨0, _⟩ => ⟨S8x21x512x512, .f32⟩
  | .hbm, ⟨1, _⟩ => ⟨S8x21x512x512, .f32⟩
  | .hbm, ⟨2, _⟩ => ⟨S_, .f32⟩
  | .hbm, ⟨3, _⟩ => ⟨S8x21x512, .f32⟩
  | .hbm, ⟨4, _⟩ => ⟨S_, .f32⟩
  | .hbm, ⟨5, _⟩ => ⟨S8x21x512, .f32⟩
  | .hbm, ⟨6, _⟩ => ⟨S8x21x512, .f32⟩
  | .hbm, ⟨7, _⟩ => ⟨S8x21x512x1, .f32⟩
  | .hbm, ⟨8, _⟩ => ⟨S8x21x512x512, .f32⟩
  | .hbm, ⟨9, _⟩ => ⟨S8x21x512x512, .f32⟩
  | .hbm, ⟨10, _⟩ => ⟨S8x21x512x512, .f32⟩
  | .hbm, ⟨11, _⟩ => ⟨S_, .f32⟩
  | .hbm, ⟨12, _⟩ => ⟨S8x21x512, .f32⟩
  | .hbm, ⟨13, _⟩ => ⟨S8x21x512x1, .f32⟩
  | .hbm, ⟨14, _⟩ => ⟨S8x21x512x1, .f32⟩
  | .hbm, ⟨15, _⟩ => ⟨S8x21x512x512, .f32⟩
  | .hbm, ⟨16, _⟩ => ⟨S8x21x512x512, .f32⟩
  | .hbm, ⟨17, _⟩ => ⟨S8x21x512x512, .f32⟩
  | .hbm, ⟨18, _⟩ => ⟨S_, .f32⟩
  | .hbm, ⟨19, _⟩ => ⟨S8x21x512, .f32⟩
  | .hbm, ⟨20, _⟩ => ⟨S8x21x512, .f32⟩
  | .hbm, ⟨21, _⟩ => ⟨S_, .f32⟩
  | .hbm, ⟨22, _⟩ => ⟨S8x21, .f32⟩
  | .hbm, ⟨23, _⟩ => ⟨S_, .f32⟩
  | .hbm, ⟨24, _⟩ => ⟨S8x21, .f32⟩
  | .hbm, ⟨25, _⟩ => ⟨S8x21, .f32⟩
  | .hbm, ⟨26, _⟩ => ⟨S8x21, .f32⟩
  | .hbm, ⟨27, _⟩ => ⟨S8x21, .f32⟩
  | .hbm, ⟨28, _⟩ => ⟨S_, .f32⟩
  | .hbm, ⟨29, _⟩ => ⟨S8x21, .f32⟩
  | .hbm, ⟨30, _⟩ => ⟨S8x21, .f32⟩
  | .hbm, ⟨31, _⟩ => ⟨S_, .f32⟩
  | .hbm, ⟨32, _⟩ => ⟨S8x21, .f32⟩
  | .hbm, ⟨33, _⟩ => ⟨S8x21, .f32⟩
  | .hbm, ⟨34, _⟩ => ⟨S_, .f32⟩
  | .hbm, ⟨35, _⟩ => ⟨S8x21, .f32⟩
  | .hbm, ⟨36, _⟩ => ⟨S8x21, .f32⟩
  | .hbm, ⟨37, _⟩ => ⟨S8x21, .f32⟩
  | .hbm, ⟨38, _⟩ => ⟨S_, .f32⟩
  | .hbm, ⟨39, _⟩ => ⟨S8, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_cst_6 : Ref sig .tc := ⟨.hbm, 40, rfl⟩
abbrev main_v17 : Ref sig .tc := ⟨.hbm, 41, rfl⟩
abbrev main_cst_7 : Ref sig .tc := ⟨.hbm, 42, rfl⟩
abbrev main_v18 : Ref sig .tc := ⟨.hbm, 43, rfl⟩

abbrev nD : Nat := 1
abbrev τ : Topo := Topo.v7x

variable {F : FTy → Type} [FloatOps F]

class Facts₀ : Prop where
  reducesTo_S8x21x512x512_S8x21x512_d3 : S8x21x512x512.ReducesTo [3] S8x21x512
  h_S_ : 0 < S_.numel
  bcast_S_S8x21x512 : S_.BroadcastsInDim S8x21x512 (![] : Fin 0 → Fin S8x21x512.rank)
  bcast_S8x21x512_S8x21x512x1_0_1_2 : S8x21x512.BroadcastsInDim S8x21x512x1 (![0, 1, 2] : Fin 3 → Fin S8x21x512x1.rank)
  bcast_S8x21x512x1_S8x21x512x512_0_1_2_3 : S8x21x512x1.BroadcastsInDim S8x21x512x512 (![0, 1, 2, 3] : Fin 4 → Fin S8x21x512x512.rank)
  reducesTo_S8x21x512_S8x21_d2 : S8x21x512.ReducesTo [2] S8x21
  bcast_S_S8x21 : S_.BroadcastsInDim S8x21 (![] : Fin 0 → Fin S8x21.rank)
  reducesTo_S8x21_S8_d1 : S8x21.ReducesTo [1] S8
  reducesTo_S8_S_d0 : S8.ReducesTo [0] S_

variable [Facts₀]

class Facts : Prop extends Facts₀ where

variable [Facts]
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«100621_j32341103739147_2_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.LibSoftmaxLanes.lean ====
/-
  A softmax along the LANES (the last axis) of a rank-3 vector, read AT AN INDEX at the ideal values, for a kernel that
  spells it the numerically careful way with both reductions kept (`keepdims`) and broadcast back along the lanes:

  * `laneMax3_apply`: a `multi_reduction <maximumf>` over the last axis of a rank-3 vector, at (a, b), is the fold of
    `max` from the accumulator's value over the lane coordinate;
  * `softmaxLanes3_apply`: the whole chain (maximum, cast [a, b] → [a, b, 1], broadcast to [a, b, c], subtract,
    exponentiate, sum, cast, broadcast, divide) at (a, b, j) is `SoftmaxRows.softmaxAt` of the lane row at (a, b).

  Nothing here needs the entries to be finite.
-/
import Idealize.ShloMosaic.PureOps.Ideal.Laws
import Idealize.ShloMosaic.Lib.Pipeline.Value
import Idealize.ShloMosaic.Lib.ValueIdx
import proofs.«100621_j32341103739147_2_alg».proof.Proof.LibKeepdims
import proofs.«100621_j32341103739147_2_alg».proof.Proof.LibSoftmaxRows

noncomputable section

open scoped BigOperators

namespace Idealize.ShloMosaic.SoftmaxLanes

open Idealize.ShloMosaic Idealize.ShloMosaic.ValueIdx Idealize.ShloMosaic.SoftmaxRows

/-- A maximum over the last axis of a rank-3 vector, at (a, b): the fold of `max` over the lane coordinate. -/
theorem laneMax3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.maximumf.neutral φ hφ)
    (a : Fin n0) (b : Fin n1) :
    multiReduction .maximumf [2] ⟨2, ![n0, n1]⟩ v acc h hφ hacc (ix2 a b)
      = (Finset.univ : Finset (Fin n2)).fold max (Ideal.ofBits φ acc) (fun c => v (ix3 a b c)) :=
  (Ideal.multiReduction_maximumf_single v acc h hφ hacc (ix2 a b)).trans
    (Finset.fold_congr fun c _ => congrArg v (funext fun d => Fin.ext (by
      match d with | ⟨0, _⟩ => rfl | ⟨1, _⟩ => rfl | ⟨2, _⟩ => rfl)))

/-- The keepdims softmax chain of a kernel over the lanes of `s`, at (a, b, j). -/
theorem softmaxLanes3_apply {n0 n1 n2 : Nat} (s : FVec Ideal ⟨3, ![n0, n1, n2]⟩ .f32) (accM accS : BitVec 32)
    (hr : (⟨3, ![n0, n1, n2]⟩ : Shape).Reduces [2] ⟨2, ![n0, n1]⟩) (hc : (⟨2, ![n0, n1]⟩ : Shape).ShapeCasts ⟨3, ![n0, n1, 1]⟩)
    (hb : (⟨3, ![n0, n1, 1]⟩ : Shape).Broadcasts ⟨3, ![n0, n1, n2]⟩) (hφ : FKind.Formats .f32)
    (hM : accM = FKind.maximumf.neutral .f32 hφ) (hS : accS = FKind.add.neutral .f32 hφ) (a : Fin n0) (b : Fin n1) (j : Fin n2) :
    divf (exp (subf s (broadcastTo ⟨3, ![n0, n1, n2]⟩ (shapeCast ⟨3, ![n0, n1, 1]⟩ (multiReduction .maximumf [2] ⟨2, ![n0, n1]⟩ s accM hr hφ hM) hc) hb)))
        (broadcastTo ⟨3, ![n0, n1, n2]⟩ (shapeCast ⟨3, ![n0, n1, 1]⟩ (multiReduction .add [2] ⟨2, ![n0, n1]⟩
          (exp (subf s (broadcastTo ⟨3, ![n0, n1, n2]⟩ (shapeCast ⟨3, ![n0, n1, 1]⟩ (multiReduction .maximumf [2] ⟨2, ![n0, n1]⟩ s accM hr hφ hM) hc) hb)))
          accS hr hφ hS) hc) hb) (ix3 a b j)
      = softmaxAt (fun c => s (ix3 a b c)) (Ideal.ofBits .f32 accM) j := by
  have hmax : ∀ c : Fin n2, broadcastTo ⟨3, ![n0, n1, n2]⟩ (shapeCast ⟨3, ![n0, n1, 1]⟩ (multiReduction .maximumf [2] ⟨2, ![n0, n1]⟩ s accM hr hφ hM) hc) hb (ix3 a b c)
      = (Finset.univ : Finset (Fin n2)).fold max (Ideal.ofBits .f32 accM) (fun c => s (ix3 a b c)) := fun c =>
    (Keepdims.bcast_col3_apply _ hb a b c).trans ((Keepdims.cast_col3_apply _ hc a b 0).trans (laneMax3_apply s accM hr hφ hM a b))
  have hexp : ∀ c : Fin n2, exp (subf s (broadcastTo ⟨3, ![n0, n1, n2]⟩ (shapeCast ⟨3, ![n0, n1, 1]⟩ (multiReduction .maximumf [2] ⟨2, ![n0, n1]⟩ s accM hr hφ hM) hc) hb)) (ix3 a b c)
      = Ideal.exp (s (ix3 a b c) - (Finset.univ : Finset (Fin n2)).fold max (Ideal.ofBits .f32 accM) (fun c => s (ix3 a b c))) := fun c =>
    congrArg (fun m => Ideal.exp (s (ix3 a b c) - m)) (hmax c)
  have hsum : broadcastTo ⟨3, ![n0, n1, n2]⟩ (shapeCast ⟨3, ![n0, n1, 1]⟩ (multiReduction .add [2] ⟨2, ![n0, n1]⟩
          (exp (subf s (broadcastTo ⟨3, ![n0, n1, n2]⟩ (shapeCast ⟨3, ![n0, n1, 1]⟩ (multiReduction .maximumf [2] ⟨2, ![n0, n1]⟩ s accM hr hφ hM) hc) hb)))
          accS hr hφ hS) hc) hb (ix3 a b j)
      = ∑ c : Fin n2, Ideal.exp (s (ix3 a b c) - (Finset.univ : Finset (Fin n2)).fold max (Ideal.ofBits .f32 accM) (fun c => s (ix3 a b c))) :=
    (Keepdims.bcast_col3_apply _ hb a b j).trans ((Keepdims.cast_col3_apply _ hc a b 0).trans
      ((Keepdims.laneSum3_apply _ accS hr hφ hS a b).trans (Finset.sum_congr rfl fun c _ => hexp c)))
  show Ideal.div _ _ = _
  unfold softmaxAt
  exact congrArg₂ Ideal.div (hexp j) hsum

end Idealize.ShloMosaic.SoftmaxLanes

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.LibLogSoftmaxRows.lean ====
/-
  A logarithmic softmax along the rows of a matrix, read AT AN INDEX at the ideal values, for kernels and references that
  spell it the numerically careful way: subtract the row's maximum, exponentiate, sum along the row, take the logarithm and
  subtract it, with both reductions kept as a column (`keepdims`) and broadcast back along the row, and the maximum joined
  once more with a lower bound before it is used (jax's guard against a row that is all minus infinity).

  * `rowMax lo init row`: `max lo` of the fold of `max` from `init` over the row;
  * `logSoftmaxAt lo init row j`: the value — `row j − M − log (∑ c, exp (row c − M))` with `M = rowMax lo init row`;
  * `logSoftmaxRows_apply`: a kernel's whole chain over the rows of a rank-2 vector (multi_reduction ⟨maximumf⟩, maximum
    with a splat scalar, cast to a column, broadcast, subtract, exponentiate, multi_reduction ⟨add⟩, cast, logarithm,
    broadcast, subtract) at (r, j) is `logSoftmaxAt` of row r;
  * `hostRowMax2_apply`: the host's one-operand reduce with a `maximum` body over the second axis of a matrix, at a row,
    is the fold of `max` from the initial value's element;
  * `hostRowSum2_apply`: the host's float sum over the second axis of a matrix, at a row, is the initial value's element
    plus the sum along the row;
  * `hostLogSoftmaxRows_apply`: the reference's chain over a matrix (reduce-maximum, maximum with a vector of lower
    bounds, the two keepdims broadcasts, subtract, exponentiate, reduce-add from a zero, broadcast, logarithm, broadcast,
    subtract) at (i, j) is `logSoftmaxAt` of row i.

  Nothing here needs the entries to be finite: two sides that both spell the logarithmic softmax this way are the same
  function on the extended reals.
-/
import Idealize.ShloMosaic.PureOps.Ideal.Laws
import Idealize.ShloMosaic.Lib.Pipeline.Value
import Idealize.ShloMosaic.Lib.ValueIdx
import proofs.«100621_j32341103739147_2_alg».proof.Proof.LibKeepdims
import proofs.«100621_j32341103739147_2_alg».proof.Proof.LibSoftmaxRows
import proofs.«100621_j32341103739147_2_alg».proof.Proof.LibHostReads

noncomputable section

open scoped BigOperators

namespace Idealize.ShloMosaic.LogSoftmaxRows

open Idealize.ShloMosaic Idealize.ShloMosaic.ValueIdx

/-- A row's maximum as a fold of `max` from `init`, joined with the lower bound `lo`. -/
def rowMax {n : Nat} (lo init : EReal) (row : Fin n → EReal) : EReal :=
  max lo ((Finset.univ : Finset (Fin n)).fold max init row)

/-- The logarithmic softmax of one row at position `j`, the row's maximum subtracted first. -/
def logSoftmaxAt {n : Nat} (lo init : EReal) (row : Fin n → EReal) (j : Fin n) : EReal :=
  (row j - rowMax lo init row) - Ideal.log (∑ c : Fin n, Ideal.exp (row c - rowMax lo init row))

/-- The keepdims logarithmic-softmax chain of a kernel over the rows of `s`, at (r, j). -/
theorem logSoftmaxRows_apply {n0 n1 : Nat} (s : FVec Ideal ⟨2, ![n0, n1]⟩ .f32) (lo : Ideal .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    subf (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb))
        (broadcastTo ⟨2, ![n0, n1]⟩ (log (shapeCast ⟨2, ![n0, 1]⟩ (multiReduction .add [1] ⟨1, ![n0]⟩
          (exp (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb)))
          accS hr hφ hS) hc)) hb) (ix2 r j)
      = logSoftmaxAt lo (Ideal.ofBits .f32 accM) (fun c => s (ix2 r c)) j := by
  have hmax : ∀ c : Fin n1, broadcastTo ⟨2, ![n0, n1]⟩ (shapeCast ⟨2, ![n0, 1]⟩ (maximumf (broadcast ⟨1, ![n0]⟩ lo) (multiReduction .maximumf [1] ⟨1, ![n0]⟩ s accM hr hφ hM)) hc) hb (ix2 r c)
      = rowMax lo (Ideal.ofBits .f32 accM) (fun c => s (ix2 r c)) := fun c =>
    (Keepdims.bcast_col_apply _ hb r c).trans ((Keepdims.cast_col_apply _ hc r 0).trans
      ((show maximumf (broadcast ⟨1, ![n0]⟩ lo) (multiReduction .maximumf [1] ⟨1, ![n0]⟩ s accM hr hφ hM) (ix1 r)
          = max lo (multiReduction .maximumf [1] ⟨1, ![n0]⟩ s accM hr hφ hM (ix1 r)) from rfl).trans
        (congrArg (max lo) (SoftmaxRows.rowMax2_apply s accM hr hφ hM r))))
  have hexp : ∀ c : Fin n1, exp (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb)) (ix2 r c)
      = Ideal.exp (s (ix2 r c) - rowMax lo (Ideal.ofBits .f32 accM) (fun c => s (ix2 r c))) := fun c =>
    congrArg (fun m => Ideal.exp (s (ix2 r c) - m)) (hmax c)
  have hlog : broadcastTo ⟨2, ![n0, n1]⟩ (log (shapeCast ⟨2, ![n0, 1]⟩ (multiReduction .add [1] ⟨1, ![n0]⟩
          (exp (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb)))
          accS hr hφ hS) hc)) hb (ix2 r j)
      = Ideal.log (∑ c : Fin n1, Ideal.exp (s (ix2 r c) - rowMax lo (Ideal.ofBits .f32 accM) (fun c => s (ix2 r c)))) :=
    (Keepdims.bcast_col_apply _ hb r j).trans (congrArg Ideal.log ((Keepdims.cast_col_apply _ hc r 0).trans
      ((Keepdims.rowSum2_apply _ accS hr hφ hS r).trans (Finset.sum_congr rfl fun c _ => hexp c))))
  have hsub : subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb) (ix2 r j)
      = s (ix2 r j) - rowMax lo (Ideal.ofBits .f32 accM) (fun c => s (ix2 r c)) :=
    congrArg (fun m => s (ix2 r j) - m) (hmax j)
  unfold logSoftmaxAt
  exact congrArg₂ (fun a b : EReal => a - b) hsub hlog

/-- The host's reduce with a `maximum` body over the second axis of a matrix, at row i: the fold of `max` from the
    initial value's element over the column coordinate. -/
theorem hostRowMax2_apply {a b : Nat} {φ : FTy} {u : Shape} (x : (⟨2, ![a, b]⟩ : Shape).Idx → Ideal φ)
    (init : u.Idx → Ideal φ) (h' : (⟨2, ![a, b]⟩ : Shape).ReducesTo [1] ⟨1, ![a]⟩)
    (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun c => x (ix2 i c)) :=
  (Host.reduce_eq_fold_single (FloatOps.maximumf (F := Ideal) (φ := φ)) x init h' h hu (ix1 i)).trans
    (Finset.fold_congr fun c _ => congrArg x (funext fun d => Fin.ext (by
      match d with | ⟨0, _⟩ => rfl | ⟨1, _⟩ => rfl)))

/-- The host's float sum over the second axis of a matrix, at row i: the initial value's element plus the sum along the row. -/
theorem hostRowSum2_apply {a b : Nat} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x init h' hu (ix1 i) = init (Shape.Idx.first hu) + ∑ c : Fin b, x (ix2 i c) :=
  HostReads.hostSum2_apply h' h x (init (Shape.Idx.first hu)) i

/-- The reference's logarithmic-softmax chain over the rows of the matrix `x`, at (i, j). -/
theorem hostLogSoftmaxRows_apply {a b : Nat} {u : Shape} (x : FVec Ideal ⟨2, ![a, b]⟩ .f32) (lo : FVec Ideal ⟨1, ![a]⟩ .f32)
    (initM initS : u.Idx → Ideal .f32)
    (h' : (⟨2, ![a, b]⟩ : Shape).ReducesTo [1] ⟨1, ![a]⟩) (h : (⟨2, ![a, b]⟩ : Shape).Reduces [1] ⟨1, ![a]⟩) (hu : 0 < u.numel)
    (hc : (⟨1, ![a]⟩ : Shape).BroadcastsInDim ⟨2, ![a, 1]⟩ ![0]) (hb : (⟨2, ![a, 1]⟩ : Shape).BroadcastsInDim ⟨2, ![a, b]⟩ ![0, 1])
    (hz : initS (Shape.Idx.first hu) = 0) (i : Fin a) (j : Fin b) :
    subf (subf x (broadcastInDim ⟨2, ![a, b]⟩ ![0, 1] hb (broadcastInDim ⟨2, ![a, 1]⟩ ![0] hc (maximumf lo (Host.reduce (FloatOps.maximumf (F := Ideal) (φ := .f32)) x initM h' hu)))))
        (broadcastInDim ⟨2, ![a, b]⟩ ![0, 1] hb (Host.log (broadcastInDim ⟨2, ![a, 1]⟩ ![0] hc (Host.reduceAdd
          (Host.exp (subf x (broadcastInDim ⟨2, ![a, b]⟩ ![0, 1] hb (broadcastInDim ⟨2, ![a, 1]⟩ ![0] hc (maximumf lo (Host.reduce (FloatOps.maximumf (F := Ideal) (φ := .f32)) x initM h' hu))))))
          initS h' hu)))) (ix2 i j)
      = logSoftmaxAt (lo (ix1 i)) (initM (Shape.Idx.first hu)) (fun c => x (ix2 i c)) j := by
  have hmax : ∀ c : Fin b, broadcastInDim ⟨2, ![a, b]⟩ ![0, 1] hb (broadcastInDim ⟨2, ![a, 1]⟩ ![0] hc (maximumf lo (Host.reduce (FloatOps.maximumf (F := Ideal) (φ := .f32)) x initM h' hu))) (ix2 i c)
      = rowMax (lo (ix1 i)) (initM (Shape.Idx.first hu)) (fun c => x (ix2 i c)) := fun c =>
    (HostReads.bcast_col_apply hb _ i c).trans ((HostReads.bcast_toCol_apply hc _ i 0).trans
      ((show maximumf lo (Host.reduce (FloatOps.maximumf (F := Ideal) (φ := .f32)) x initM h' hu) (ix1 i)
          = max (lo (ix1 i)) (Host.reduce (FloatOps.maximumf (F := Ideal) (φ := .f32)) x initM h' hu (ix1 i)) from rfl).trans
        (congrArg (max (lo (ix1 i))) (hostRowMax2_apply x initM h' h hu i))))
  have hexp : ∀ c : Fin b, Host.exp (subf x (broadcastInDim ⟨2, ![a, b]⟩ ![0, 1] hb (broadcastInDim ⟨2, ![a, 1]⟩ ![0] hc (maximumf lo (Host.reduce (FloatOps.maximumf (F := Ideal) (φ := .f32)) x initM h' hu))))) (ix2 i c)
      = Ideal.exp (x (ix2 i c) - rowMax (lo (ix1 i)) (initM (Shape.Idx.first hu)) (fun c => x (ix2 i c))) := fun c =>
    congrArg (fun m => Ideal.exp (x (ix2 i c) - m)) (hmax c)
  have hlog : broadcastInDim ⟨2, ![a, b]⟩ ![0, 1] hb (Host.log (broadcastInDim ⟨2, ![a, 1]⟩ ![0] hc (Host.reduceAdd
          (Host.exp (subf x (broadcastInDim ⟨2, ![a, b]⟩ ![0, 1] hb (broadcastInDim ⟨2, ![a, 1]⟩ ![0] hc (maximumf lo (Host.reduce (FloatOps.maximumf (F := Ideal) (φ := .f32)) x initM h' hu))))))
          initS h' hu))) (ix2 i j)
      = Ideal.log (∑ c : Fin b, Ideal.exp (x (ix2 i c) - rowMax (lo (ix1 i)) (initM (Shape.Idx.first hu)) (fun c => x (ix2 i c)))) :=
    (HostReads.bcast_col_apply hb _ i j).trans (congrArg Ideal.log ((HostReads.bcast_toCol_apply hc _ i 0).trans
      ((hostRowSum2_apply _ initS h' h hu i).trans
        ((congrArg (· + _) hz).trans ((zero_add _).trans (Finset.sum_congr rfl fun c _ => hexp c))))))
  have hsub : subf x (broadcastInDim ⟨2, ![a, b]⟩ ![0, 1] hb (broadcastInDim ⟨2, ![a, 1]⟩ ![0] hc (maximumf lo (Host.reduce (FloatOps.maximumf (F := Ideal) (φ := .f32)) x initM h' hu)))) (ix2 i j)
      = x (ix2 i j) - rowMax (lo (ix1 i)) (initM (Shape.Idx.first hu)) (fun c => x (ix2 i c)) :=
    congrArg (fun m => x (ix2 i j) - m) (hmax j)
  unfold logSoftmaxAt
  exact congrArg₂ (fun p q : EReal => p - q) hsub hlog

end Idealize.ShloMosaic.LogSoftmaxRows

end
-- ==== Proof.LibLogSoftmaxLanes.lean ====
/-
  A logarithmic softmax along the LANES (the last axis), read AT AN INDEX at the ideal values, for a kernel that works on a
  rank-3 vector and a reference that works on a rank-4 array, both spelling it the numerically careful way: subtract the
  lane row's maximum, exponentiate, sum along the lanes, take the logarithm and subtract it, with both reductions kept
  (`keepdims`) and broadcast back along the lanes. The value is `LogSoftmaxRows.logSoftmaxAt lo init row j` of the lane row.

  * `rowMax_self`: a row's maximum joined with the fold's own starting value is the plain fold;
  * `logSoftmaxLanes3_apply`: a kernel's whole chain over a rank-3 vector (multi_reduction ⟨maximumf⟩ over the lanes, cast
    [a, b] → [a, b, 1], broadcast to [a, b, c], subtract, exponentiate, multi_reduction ⟨add⟩, cast, logarithm, broadcast,
    subtract) at (a, b, j): the lower bound is the maximum's own starting value;
  * `hostLaneMax4_apply`, `hostLaneSum4_apply`: the host's reduce with a `maximum` body, and its float sum, over the last
    axis of a rank-4 array, at (a, b, c): the fold of `max` from the initial value's element, and that element plus the sum,
    over the lane coordinate;
  * `bcast_keep4_apply`, `bcast_lane4_apply`: the keepdims broadcasts [a, b, c] → [a, b, c, 1] and [a, b, c, 1] → [a, b, c, d];
  * `hostLogSoftmaxLanes4_apply`: the reference's whole chain over a rank-4 array (reduce-maximum, maximum with an array of
    lower bounds, the two keepdims broadcasts, subtract, exponentiate, reduce-add from a zero, broadcast, logarithm, broadcast,
    subtract) at (a, b, c, j).

  Nothing here needs the entries to be finite: two sides that both spell the logarithmic softmax this way are the same
  function on the extended reals.
-/
import Idealize.ShloMosaic.PureOps.Ideal.Laws
import Idealize.ShloMosaic.Lib.Pipeline.Value
import Idealize.ShloMosaic.Lib.ValueIdx
import proofs.«100621_j32341103739147_2_alg».proof.Proof.LibKeepdims
import proofs.«100621_j32341103739147_2_alg».proof.Proof.LibSoftmaxRows
import proofs.«100621_j32341103739147_2_alg».proof.Proof.LibSoftmaxLanes
import proofs.«100621_j32341103739147_2_alg».proof.Proof.LibLogSoftmaxRows

noncomputable section

open scoped BigOperators

namespace Idealize.ShloMosaic.LogSoftmaxLanes

open Idealize.ShloMosaic Idealize.ShloMosaic.ValueIdx Idealize.ShloMosaic.LogSoftmaxRows

/-- Joined with the value its fold started from, a row's maximum is the plain fold of `max`. -/
theorem rowMax_self {n : Nat} (b : EReal) (row : Fin n → EReal) :
    rowMax b b row = (Finset.univ : Finset (Fin n)).fold max b row :=
  SoftmaxRows.max_fold_max_self _ b row

/-! ## The kernel's chain over a rank-3 vector -/

/-- The keepdims logarithmic-softmax chain of a kernel over the lanes of `s`, at (a, b, j). -/
theorem logSoftmaxLanes3_apply {n0 n1 n2 : Nat} (s : FVec Ideal ⟨3, ![n0, n1, n2]⟩ .f32) (accM accS : BitVec 32)
    (hr : (⟨3, ![n0, n1, n2]⟩ : Shape).Reduces [2] ⟨2, ![n0, n1]⟩) (hc : (⟨2, ![n0, n1]⟩ : Shape).ShapeCasts ⟨3, ![n0, n1, 1]⟩)
    (hb : (⟨3, ![n0, n1, 1]⟩ : Shape).Broadcasts ⟨3, ![n0, n1, n2]⟩) (hφ : FKind.Formats .f32)
    (hM : accM = FKind.maximumf.neutral .f32 hφ) (hS : accS = FKind.add.neutral .f32 hφ) (a : Fin n0) (b : Fin n1) (j : Fin n2) :
    subf (subf s (broadcastTo ⟨3, ![n0, n1, n2]⟩ (shapeCast ⟨3, ![n0, n1, 1]⟩ (multiReduction .maximumf [2] ⟨2, ![n0, n1]⟩ s accM hr hφ hM) hc) hb))
        (broadcastTo ⟨3, ![n0, n1, n2]⟩ (log (shapeCast ⟨3, ![n0, n1, 1]⟩ (multiReduction .add [2] ⟨2, ![n0, n1]⟩
          (exp (subf s (broadcastTo ⟨3, ![n0, n1, n2]⟩ (shapeCast ⟨3, ![n0, n1, 1]⟩ (multiReduction .maximumf [2] ⟨2, ![n0, n1]⟩ s accM hr hφ hM) hc) hb)))
          accS hr hφ hS) hc)) hb) (ix3 a b j)
      = logSoftmaxAt (Ideal.ofBits .f32 accM) (Ideal.ofBits .f32 accM) (fun c => s (ix3 a b c)) j := by
  have hmax : ∀ c : Fin n2, broadcastTo ⟨3, ![n0, n1, n2]⟩ (shapeCast ⟨3, ![n0, n1, 1]⟩ (multiReduction .maximumf [2] ⟨2, ![n0, n1]⟩ s accM hr hφ hM) hc) hb (ix3 a b c)
      = rowMax (Ideal.ofBits .f32 accM) (Ideal.ofBits .f32 accM) (fun c => s (ix3 a b c)) := fun c =>
    (Keepdims.bcast_col3_apply _ hb a b c).trans ((Keepdims.cast_col3_apply _ hc a b 0).trans
      ((SoftmaxLanes.laneMax3_apply s accM hr hφ hM a b).trans (rowMax_self _ _).symm))
  have hexp : ∀ c : Fin n2, exp (subf s (broadcastTo ⟨3, ![n0, n1, n2]⟩ (shapeCast ⟨3, ![n0, n1, 1]⟩ (multiReduction .maximumf [2] ⟨2, ![n0, n1]⟩ s accM hr hφ hM) hc) hb)) (ix3 a b c)
      = Ideal.exp (s (ix3 a b c) - rowMax (Ideal.ofBits .f32 accM) (Ideal.ofBits .f32 accM) (fun c => s (ix3 a b c))) := fun c =>
    congrArg (fun m => Ideal.exp (s (ix3 a b c) - m)) (hmax c)
  have hlog : broadcastTo ⟨3, ![n0, n1, n2]⟩ (log (shapeCast ⟨3, ![n0, n1, 1]⟩ (multiReduction .add [2] ⟨2, ![n0, n1]⟩
          (exp (subf s (broadcastTo ⟨3, ![n0, n1, n2]⟩ (shapeCast ⟨3, ![n0, n1, 1]⟩ (multiReduction .maximumf [2] ⟨2, ![n0, n1]⟩ s accM hr hφ hM) hc) hb)))
          accS hr hφ hS) hc)) hb (ix3 a b j)
      = Ideal.log (∑ c : Fin n2, Ideal.exp (s (ix3 a b c) - rowMax (Ideal.ofBits .f32 accM) (Ideal.ofBits .f32 accM) (fun c => s (ix3 a b c)))) :=
    (Keepdims.bcast_col3_apply _ hb a b j).trans (congrArg Ideal.log ((Keepdims.cast_col3_apply _ hc a b 0).trans
      ((Keepdims.laneSum3_apply _ accS hr hφ hS a b).trans (Finset.sum_congr rfl fun c _ => hexp c))))
  have hsub : subf s (broadcastTo ⟨3, ![n0, n1, n2]⟩ (shapeCast ⟨3, ![n0, n1, 1]⟩ (multiReduction .maximumf [2] ⟨2, ![n0, n1]⟩ s accM hr hφ hM) hc) hb) (ix3 a b j)
      = s (ix3 a b j) - rowMax (Ideal.ofBits .f32 accM) (Ideal.ofBits .f32 accM) (fun c => s (ix3 a b c)) :=
    congrArg (fun m => s (ix3 a b j) - m) (hmax j)
  unfold logSoftmaxAt
  exact congrArg₂ (fun p q : EReal => p - q) hsub hlog

/-! ## The host's operations over a rank-4 array -/

/-- The host's reduce with a `maximum` body over the last axis of a rank-4 array, at (a, b, c): the fold of `max` from the
    initial value's element over the lane coordinate. -/
theorem hostLaneMax4_apply {n0 n1 n2 n3 : Nat} {φ : FTy} {u : Shape} (x : (⟨4, ![n0, n1, n2, n3]⟩ : Shape).Idx → Ideal φ)
    (init : u.Idx → Ideal φ) (h' : (⟨4, ![n0, n1, n2, n3]⟩ : Shape).ReducesTo [3] ⟨3, ![n0, n1, n2]⟩)
    (h : (⟨4, ![n0, n1, n2, n3]⟩ : Shape).Reduces [3] ⟨3, ![n0, n1, n2]⟩) (hu : 0 < u.numel) (a : Fin n0) (b : Fin n1) (c : Fin n2) :
    Host.reduce (FloatOps.maximumf (F := Ideal) (φ := φ)) x init h' hu (ix3 a b c)
      = (Finset.univ : Finset (Fin n3)).fold max (init (Shape.Idx.first hu)) (fun l => x (ix4 a b c l)) :=
  (Host.reduce_eq_fold_single (FloatOps.maximumf (F := Ideal) (φ := φ)) x init h' h hu (ix3 a b c)).trans
    (Finset.fold_congr fun l _ => congrArg x (funext fun d => Fin.ext (by
      match d with | ⟨0, _⟩ => rfl | ⟨1, _⟩ => rfl | ⟨2, _⟩ => rfl | ⟨3, _⟩ => rfl)))

/-- The host's float sum over the last axis of a rank-4 array, at (a, b, c): the initial value's element plus the sum over
    the lane coordinate. -/
theorem hostLaneSum4_apply {n0 n1 n2 n3 : Nat} {u : Shape} (x : FVec Ideal ⟨4, ![n0, n1, n2, n3]⟩ .f32) (init : u.Idx → Ideal .f32)
    (h' : (⟨4, ![n0, n1, n2, n3]⟩ : Shape).ReducesTo [3] ⟨3, ![n0, n1, n2]⟩)
    (h : (⟨4, ![n0, n1, n2, n3]⟩ : Shape).Reduces [3] ⟨3, ![n0, n1, n2]⟩) (hu : 0 < u.numel) (a : Fin n0) (b : Fin n1) (c : Fin n2) :
    Host.reduceAdd x init h' hu (ix3 a b c) = init (Shape.Idx.first hu) + ∑ l : Fin n3, x (ix4 a b c l) :=
  (Ideal.hostReduceAdd_single h' h x (init (Shape.Idx.first hu)) (ix3 a b c)).trans
    (congrArg (init (Shape.Idx.first hu) + ·) (Finset.sum_congr rfl fun l _ => congrArg x (funext fun d => Fin.ext (by
      match d with | ⟨0, _⟩ => rfl | ⟨1, _⟩ => rfl | ⟨2, _⟩ => rfl | ⟨3, _⟩ => rfl))))

section Layout
variable {α : Type}

/-- [a, b, c] given a trailing unit axis: entry (i, j, k, 0) is entry (i, j, k). -/
theorem bcast_keep4_apply {a b c : Nat} (h : (⟨3, ![a, b, c]⟩ : Shape).BroadcastsInDim ⟨4, ![a, b, c, 1]⟩ ![0, 1, 2])
    (x : (⟨3, ![a, b, c]⟩ : Shape).Idx → α) (i : Fin a) (j : Fin b) (k : Fin c) (z : Fin 1) :
    broadcastInDim ⟨4, ![a, b, c, 1]⟩ ![0, 1, 2] h x (ix4 i j k z) = x (ix3 i j k) :=
  broadcastInDim_apply _ h x (ix4 i j k z) (ix3 i j k) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ =>
      show k.val = if c = 1 then 0 else k.val
      split
      · have := k.isLt; omega
      · rfl)

/-- [a, b, c, 1] repeated along the last axis: entry (i, j, k, l) is entry (i, j, k, 0). -/
theorem bcast_lane4_apply {a b c d : Nat} (h : (⟨4, ![a, b, c, 1]⟩ : Shape).BroadcastsInDim ⟨4, ![a, b, c, d]⟩ ![0, 1, 2, 3])
    (x : (⟨4, ![a, b, c, 1]⟩ : Shape).Idx → α) (i : Fin a) (j : Fin b) (k : Fin c) (l : Fin d) :
    broadcastInDim ⟨4, ![a, b, c, d]⟩ ![0, 1, 2, 3] h x (ix4 i j k l) = x (ix4 i j k 0) :=
  broadcastInDim_apply _ h x (ix4 i j k l) (ix4 i j k 0) (fun e => by
    match e with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ =>
      show k.val = if c = 1 then 0 else k.val
      split
      · have := k.isLt; omega
      · rfl
    | ⟨3, _⟩ => show 0 = if (1 : Nat) = 1 then 0 else l.val; rw [if_pos rfl])

end Layout

/-- The reference's logarithmic-softmax chain over the lanes of the rank-4 array `x`, at (i, j, k, l). -/
theorem hostLogSoftmaxLanes4_apply {a b c d : Nat} {u : Shape} (x : FVec Ideal ⟨4, ![a, b, c, d]⟩ .f32) (lo : FVec Ideal ⟨3, ![a, b, c]⟩ .f32)
    (initM initS : u.Idx → Ideal .f32)
    (h' : (⟨4, ![a, b, c, d]⟩ : Shape).ReducesTo [3] ⟨3, ![a, b, c]⟩) (h : (⟨4, ![a, b, c, d]⟩ : Shape).Reduces [3] ⟨3, ![a, b, c]⟩) (hu : 0 < u.numel)
    (hc : (⟨3, ![a, b, c]⟩ : Shape).BroadcastsInDim ⟨4, ![a, b, c, 1]⟩ ![0, 1, 2])
    (hb : (⟨4, ![a, b, c, 1]⟩ : Shape).BroadcastsInDim ⟨4, ![a, b, c, d]⟩ ![0, 1, 2, 3])
    (hz : initS (Shape.Idx.first hu) = 0) (i : Fin a) (j : Fin b) (k : Fin c) (l : Fin d) :
    subf (subf x (broadcastInDim ⟨4, ![a, b, c, d]⟩ ![0, 1, 2, 3] hb (broadcastInDim ⟨4, ![a, b, c, 1]⟩ ![0, 1, 2] hc (maximumf lo (Host.reduce (FloatOps.maximumf (F := Ideal) (φ := .f32)) x initM h' hu)))))
        (broadcastInDim ⟨4, ![a, b, c, d]⟩ ![0, 1, 2, 3] hb (Host.log (broadcastInDim ⟨4, ![a, b, c, 1]⟩ ![0, 1, 2] hc (Host.reduceAdd
          (Host.exp (subf x (broadcastInDim ⟨4, ![a, b, c, d]⟩ ![0, 1, 2, 3] hb (broadcastInDim ⟨4, ![a, b, c, 1]⟩ ![0, 1, 2] hc (maximumf lo (Host.reduce (FloatOps.maximumf (F := Ideal) (φ := .f32)) x initM h' hu))))))
          initS h' hu)))) (ix4 i j k l)
      = logSoftmaxAt (lo (ix3 i j k)) (initM (Shape.Idx.first hu)) (fun e => x (ix4 i j k e)) l := by
  have hmax : ∀ e : Fin d, broadcastInDim ⟨4, ![a, b, c, d]⟩ ![0, 1, 2, 3] hb (broadcastInDim ⟨4, ![a, b, c, 1]⟩ ![0, 1, 2] hc (maximumf lo (Host.reduce (FloatOps.maximumf (F := Ideal) (φ := .f32)) x initM h' hu))) (ix4 i j k e)
      = rowMax (lo (ix3 i j k)) (initM (Shape.Idx.first hu)) (fun e => x (ix4 i j k e)) := fun e =>
    (bcast_lane4_apply hb _ i j k e).trans ((bcast_keep4_apply hc _ i j k 0).trans
      ((show maximumf lo (Host.reduce (FloatOps.maximumf (F := Ideal) (φ := .f32)) x initM h' hu) (ix3 i j k)
          = max (lo (ix3 i j k)) (Host.reduce (FloatOps.maximumf (F := Ideal) (φ := .f32)) x initM h' hu (ix3 i j k)) from rfl).trans
        (congrArg (max (lo (ix3 i j k))) (hostLaneMax4_apply x initM h' h hu i j k))))
  have hexp : ∀ e : Fin d, Host.exp (subf x (broadcastInDim ⟨4, ![a, b, c, d]⟩ ![0, 1, 2, 3] hb (broadcastInDim ⟨4, ![a, b, c, 1]⟩ ![0, 1, 2] hc (maximumf lo (Host.reduce (FloatOps.maximumf (F := Ideal) (φ := .f32)) x initM h' hu))))) (ix4 i j k e)
      = Ideal.exp (x (ix4 i j k e) - rowMax (lo (ix3 i j k)) (initM (Shape.Idx.first hu)) (fun e => x (ix4 i j k e))) := fun e =>
    congrArg (fun m => Ideal.exp (x (ix4 i j k e) - m)) (hmax e)
  have hlog : broadcastInDim ⟨4, ![a, b, c, d]⟩ ![0, 1, 2, 3] hb (Host.log (broadcastInDim ⟨4, ![a, b, c, 1]⟩ ![0, 1, 2] hc (Host.reduceAdd
          (Host.exp (subf x (broadcastInDim ⟨4, ![a, b, c, d]⟩ ![0, 1, 2, 3] hb (broadcastInDim ⟨4, ![a, b, c, 1]⟩ ![0, 1, 2] hc (maximumf lo (Host.reduce (FloatOps.maximumf (F := Ideal) (φ := .f32)) x initM h' hu))))))
          initS h' hu))) (ix4 i j k l)
      = Ideal.log (∑ e : Fin d, Ideal.exp (x (ix4 i j k e) - rowMax (lo (ix3 i j k)) (initM (Shape.Idx.first hu)) (fun e => x (ix4 i j k e)))) :=
    (bcast_lane4_apply hb _ i j k l).trans (congrArg Ideal.log ((bcast_keep4_apply hc _ i j k 0).trans
      ((hostLaneSum4_apply _ initS h' h hu i j k).trans
        ((congrArg (· + _) hz).trans ((zero_add _).trans (Finset.sum_congr rfl fun e _ => hexp e))))))
  have hsub : subf x (broadcastInDim ⟨4, ![a, b, c, d]⟩ ![0, 1, 2, 3] hb (broadcastInDim ⟨4, ![a, b, c, 1]⟩ ![0, 1, 2] hc (maximumf lo (Host.reduce (FloatOps.maximumf (F := Ideal) (φ := .f32)) x initM h' hu)))) (ix4 i j k l)
      = x (ix4 i j k l) - rowMax (lo (ix3 i j k)) (initM (Shape.Idx.first hu)) (fun e => x (ix4 i j k e)) :=
    congrArg (fun m => x (ix4 i j k l) - m) (hmax l)
  unfold logSoftmaxAt
  exact congrArg₂ (fun p q : EReal => p - q) hsub hlog

end Idealize.ShloMosaic.LogSoftmaxLanes

end
-- ==== Proof.SoftLabelCE.lean ====
/-
  The soft-label cross entropy both programs compute, on the extended reals.

  For a batch entry b and a class k the two argument arrays hold a 512 × 512 plane each: scores x and soft labels t.
  Every row h of the score plane is turned into log-probabilities by a logarithmic softmax along the row
  (`LogSoftmaxRows.logSoftmaxAt`: subtract the row's maximum, subtract the logarithm of the sum of the exponentials), the
  row's cross entropy is minus the sum over the row of label times log-probability, and the plane's value is the sum of
  its rows' cross entropies divided by the number of rows. The [8, 21] matrix of these values is what the kernel's grid
  produces block by block and what the reference's array operations produce at once; the focal weighting that follows is
  applied to that matrix by both programs in the same words.

  The two literals involved — minus infinity, where both maxima start, and 512, the divisor — are kept as the bit patterns
  both programs print: the same word on both sides is never evaluated.
-/
import Idealize.ShloMosaic.PureOps.Ideal.Laws
import Idealize.ShloMosaic.Lib.ValueIdx
import proofs.«100621_j32341103739147_2_alg».proof.Proof.LibLogSoftmaxRows

noncomputable section

open scoped BigOperators

namespace Cert.SoftLabelCE

open Idealize.ShloMosaic Idealize.ShloMosaic.ValueIdx Idealize.ShloMosaic.LogSoftmaxRows

/-- Minus infinity, as both programs write it: where a row's maximum starts, and the bound it is joined with. -/
abbrev negInf : EReal := Ideal.ofBits .f32 0xFF800000#32

/-- The number of rows of a plane, 512, as both programs write it. -/
abbrev rows : EReal := Ideal.ofBits .f32 0x44000000#32

/-- The cross entropy of one plane of scores `x` against one plane of soft labels `t`: the mean over the rows `h` of
    `−∑ w, t h w · logsoftmax (x h) w`. -/
def planeCE (x t : Fin 512 → Fin 512 → EReal) : EReal :=
  Ideal.div (∑ h : Fin 512, -(∑ w : Fin 512, t h w * logSoftmaxAt negInf negInf (x h) w)) rows

/-- The cross entropy of batch entry `b`, class `k`, of the argument arrays. -/
def ceAt (x t : (⟨4, ![8, 21, 512, 512]⟩ : Shape).Idx → EReal) (b : Fin 8) (k : Fin 21) : EReal :=
  planeCE (fun h w => x (ix4 b k h w)) (fun h w => t (ix4 b k h w))

/-- The [8, 21] matrix of cross entropies. -/
def ce (x t : (⟨4, ![8, 21, 512, 512]⟩ : Shape).Idx → EReal) : (⟨2, ![8, 21]⟩ : Shape).Idx → EReal := fun p =>
  ceAt x t ⟨(p 0).val, (p 0).isLt⟩ ⟨(p 1).val, (p 1).isLt⟩

theorem ce_ix2 (x t : (⟨4, ![8, 21, 512, 512]⟩ : Shape).Idx → EReal) (b : Fin 8) (k : Fin 21) :
    ce x t (ix2 b k) = ceAt x t b k := rfl

end Cert.SoftLabelCE

end
-- ==== Proof.RefCE.lean ====
/-
  What the reference computes, read at an index at the ideal values.

  Its log_softmax call is the keepdims chain over the last axis of the [8, 21, 512, 512] scores (`logp_apply`: at
  (b, k, h, w) the logarithmic softmax of row h of plane (b, k)); the lines after it multiply by the labels, sum along the
  last axis from a zero, negate (`rowCE_apply`), sum over the rows from a zero and divide by 512. So its [8, 21] matrix — the
  stage the focal weighting is then applied to — is `SoftLabelCE.ce` of the two arguments (`ce_eq`).
-/
import proofs.«100621_j32341103739147_2_alg».proof.Proof.RefReadPatched
import proofs.«100621_j32341103739147_2_alg».proof.Proof.LibLogSoftmaxLanes
import proofs.«100621_j32341103739147_2_alg».proof.Proof.SoftLabelCE

noncomputable section

open scoped BigOperators

namespace Cert.ReferenceIdeal.RefCE

open Idealize.ShloMosaic Idealize.ShloMosaic.ValueIdx Idealize.ShloMosaic.LogSoftmaxRows
open Cert.ReferenceIdeal Cert.ReferenceIdeal.Gen Cert.ReferenceIdeal.ReadP Cert.SoftLabelCE

/-- The reference's log-probabilities at (b, k, h, w): the logarithmic softmax of row h of the scores' plane (b, k). The
    bound its maximum is joined with, and the value its maximum starts from, are both minus infinity; its sum starts
    from zero. -/
theorem logp_apply (x0 : (⟨S8x21x512x512, .f32⟩ : BufTy).Contents (Elt Ideal)) (b : Fin 8) (k : Fin 21) (h w : Fin 512) :
    val_main_v0 (F := Ideal) x0 (ix4 b k h w) = logSoftmaxAt negInf negInf (fun e => x0 (ix4 b k h e)) w :=
  LogSoftmaxLanes.hostLogSoftmaxLanes4_apply x0 (val_main_call0_v1 (F := Ideal))
    (constant (F := Ideal) S_ .f32 0xFF800000#32) (constant (F := Ideal) S_ .f32 0x00000000#32)
    reducesTo_S8x21x512x512_S8x21x512_d3 (by decide) h_S_ bcast_S8x21x512_S8x21x512x1_0_1_2
    bcast_S8x21x512x1_S8x21x512x512_0_1_2_3 Ideal.ofBits_zero_f32 b k h w

/-- The index the row sum reads at lane w of row (b, k, h). -/
theorem lane_idx (b : Fin 8) (k : Fin 21) (h w : Fin 512) : idx_main_v2 (ix3 b k h) w = ix4 b k h w :=
  funext fun a => Fin.ext (by match a with | ⟨0, _⟩ => rfl | ⟨1, _⟩ => rfl | ⟨2, _⟩ => rfl | ⟨3, _⟩ => rfl)

/-- The index the plane sum reads at row h of plane (b, k). -/
theorem row_idx (b : Fin 8) (k : Fin 21) (h : Fin 512) : idx_main_v4 (ix2 b k) h = ix3 b k h :=
  funext fun a => Fin.ext (by match a with | ⟨0, _⟩ => rfl | ⟨1, _⟩ => rfl | ⟨2, _⟩ => rfl)

/-- The cross entropy of row h of plane (b, k): minus the sum over the row of label times log-probability. -/
theorem rowCE_apply (x0 x1 : (⟨S8x21x512x512, .f32⟩ : BufTy).Contents (Elt Ideal)) (b : Fin 8) (k : Fin 21) (h : Fin 512) :
    val_main_v3 (F := Ideal) x0 x1 (ix3 b k h)
      = -(∑ w : Fin 512, x1 (ix4 b k h w) * logSoftmaxAt negInf negInf (fun e => x0 (ix4 b k h e)) w) := by
  show -(val_main_v2 (F := Ideal) x0 x1 (ix3 b k h)) = _
  rw [val_main_v2_apply]
  refine congrArg Neg.neg (((congrArg (· + _) Ideal.ofBits_zero_f32).trans (zero_add _)).trans
    (Finset.sum_congr rfl fun w _ => ?_))
  rw [lane_idx]
  exact congrArg (x1 (ix4 b k h w) * ·) (logp_apply x0 b k h w)

/-- THE REFERENCE'S [8, 21] MATRIX is the matrix of cross entropies of the two arguments. -/
theorem ce_eq (x0 x1 : (⟨S8x21x512x512, .f32⟩ : BufTy).Contents (Elt Ideal)) :
    val_main_v6 (F := Ideal) x0 x1 = ce x0 x1 := by
  funext p
  obtain ⟨b, k, rfl⟩ : ∃ (b : Fin 8) (k : Fin 21), p = ix2 b k := ⟨p 0, p 1, eq_ix2 p⟩
  rw [ce_ix2]
  show Ideal.div (val_main_v4 (F := Ideal) x0 x1 (ix2 b k)) (val_main_v5 (F := Ideal) (ix2 b k)) = _
  rw [val_main_v4_apply]
  unfold ceAt planeCE
  refine congrArg₂ Ideal.div (((congrArg (· + _) Ideal.ofBits_zero_f32).trans (zero_add _)).trans
    (Finset.sum_congr rfl fun h _ => ?_)) rfl
  rw [row_idx]
  exact rowCE_apply x0 x1 b k h

end Cert.ReferenceIdeal.RefCE

end
-- ==== Proof.BlockCE.lean ====
/-
  What the kernel's body computes from its two blocks, read at an index at the ideal values.

  A block is three planes: [1, 3, 512, 512] of the scores and the same of the soft labels, viewed [3, 512, 512]. The body
  takes the logarithmic softmax along the last axis (`logp`), multiplies by the labels, sums along the last axis, negates
  (as 0 − ·), sums over the rows and divides by 512 (`blockCE`), and stores the three numbers as a [1, 1, 1, 3] block. So
  entry j of what it stores is the cross entropy `SoftLabelCE.planeCE` of plane j of the two blocks.
-/
import proofs.«100621_j32341103739147_2_alg».proof.Proof.Gen.KernelIdeal.Skeleton
import proofs.«100621_j32341103739147_2_alg».proof.Proof.LibLogSoftmaxLanes
import proofs.«100621_j32341103739147_2_alg».proof.Proof.SoftLabelCE

noncomputable section

open scoped BigOperators

namespace Cert.KernelIdeal.BlockCE

open Idealize.ShloMosaic Idealize.ShloMosaic.ValueIdx Idealize.ShloMosaic.LogSoftmaxRows
open Cert.KernelIdeal Cert.KernelIdeal.Gen Cert.SoftLabelCE

/-- The logarithmic softmax along the last axis of a [3, 512, 512] vector, in the body's words. -/
def logp (x : FVec Ideal S3x512x512 .f32) : FVec Ideal S3x512x512 .f32 :=
  subf (subf x (broadcastTo S3x512x512 (shapeCast S3x512x1 (multiReduction .maximumf [2] S3x512 x 0xFF800000#32 reduces_S3x512x512_S3x512 (.inl rfl) rfl) shapeCasts_S3x512_S3x512x1) broadcasts_S3x512x1_S3x512x512))
    (broadcastTo S3x512x512 (log (shapeCast S3x512x1 (multiReduction .add [2] S3x512
      (exp (subf x (broadcastTo S3x512x512 (shapeCast S3x512x1 (multiReduction .maximumf [2] S3x512 x 0xFF800000#32 reduces_S3x512x512_S3x512 (.inl rfl) rfl) shapeCasts_S3x512_S3x512x1) broadcasts_S3x512x1_S3x512x512)))
      0x00000000#32 reduces_S3x512x512_S3x512 (.inl rfl) rfl) shapeCasts_S3x512_S3x512x1)) broadcasts_S3x512x1_S3x512x512)

/-- The three cross entropies of a block, in the body's words. -/
def blockCE (x t : FVec Ideal S3x512x512 .f32) : FVec Ideal S3 .f32 :=
  divf (multiReduction .add [1] S3
      (subf (broadcast S3x512 (Scalar.ofBits (F := Ideal) .f32 0x00000000#32))
        (multiReduction .add [2] S3x512 (mulf t (logp x)) 0x00000000#32 reduces_S3x512x512_S3x512 (.inl rfl) rfl))
      0x00000000#32 reduces_S3x512_S3 (.inl rfl) rfl)
    (broadcast S3 (Scalar.ofBits (F := Ideal) .f32 0x44000000#32))

/-- The body's stored value is `blockCE` of its two loaded blocks, each viewed [3, 512, 512], viewed [1, 1, 1, 3]. -/
theorem pay_eq (v0 v2 : Vec Ideal S1x3x512x512 .f32) :
    k0_pay1 (F := Ideal) v0 v2
      = shapeCast S1x1x1x3 (blockCE (shapeCast S3x512x512 v0 shapeCasts_S1x3x512x512_S3x512x512)
          (shapeCast S3x512x512 v2 shapeCasts_S1x3x512x512_S3x512x512)) shapeCasts_S3_S1x1x1x3 := rfl

/-- `logp` at (j, h, w) is the logarithmic softmax of row h of plane j, at w. -/
theorem logp_apply (x : FVec Ideal S3x512x512 .f32) (j : Fin 3) (h w : Fin 512) :
    logp x (ix3 j h w) = logSoftmaxAt negInf negInf (fun e => x (ix3 j h e)) w :=
  LogSoftmaxLanes.logSoftmaxLanes3_apply x 0xFF800000#32 0x00000000#32 reduces_S3x512x512_S3x512 shapeCasts_S3x512_S3x512x1
    broadcasts_S3x512x1_S3x512x512 (.inl rfl) rfl rfl j h w

/-- `blockCE` at j is the cross entropy of plane j: the lane sums and the row sum are sums over the coordinates, and
    `0 − s = −s`. -/
theorem blockCE_apply (x t : FVec Ideal S3x512x512 .f32) (j : Fin 3) :
    blockCE x t (ix1 j) = planeCE (fun h w => x (ix3 j h w)) (fun h w => t (ix3 j h w)) := by
  have hrow : ∀ h : Fin 512,
      subf (broadcast S3x512 (Scalar.ofBits (F := Ideal) .f32 0x00000000#32))
        (multiReduction .add [2] S3x512 (mulf t (logp x)) 0x00000000#32 reduces_S3x512x512_S3x512 (.inl rfl) rfl) (ix2 j h)
      = -(∑ w : Fin 512, t (ix3 j h w) * logSoftmaxAt negInf negInf (fun e => x (ix3 j h e)) w) := fun h =>
    (show _ = Ideal.ofBits .f32 0x00000000#32
        - multiReduction .add [2] S3x512 (mulf t (logp x)) 0x00000000#32 reduces_S3x512x512_S3x512 (.inl rfl) rfl (ix2 j h) from rfl).trans
      ((congrArg₂ (fun p q : EReal => p - q) Ideal.ofBits_zero_f32
          ((Keepdims.laneSum3_apply _ 0x00000000#32 reduces_S3x512x512_S3x512 (.inl rfl) rfl j h).trans
            (Finset.sum_congr rfl fun w _ => congrArg (t (ix3 j h w) * ·) (logp_apply x j h w)))).trans (zero_sub _))
  unfold blockCE planeCE
  exact congrArg₂ Ideal.div
    ((Keepdims.rowSum2_apply _ 0x00000000#32 reduces_S3x512_S3 (.inl rfl) rfl j).trans (Finset.sum_congr rfl fun h _ => hrow h)) rfl

/-- A [1, 3, 512, 512] block viewed [3, 512, 512]: entry (j, h, w) is entry (0, j, h, w). -/
theorem planes_apply (v : Vec Ideal S1x3x512x512 .f32) (j : Fin 3) (h w : Fin 512) :
    shapeCast S3x512x512 v shapeCasts_S1x3x512x512_S3x512x512 (ix3 j h w) = v (ix4 0 j h w) :=
  shapeCast_apply v shapeCasts_S1x3x512x512_S3x512x512 (ix3 j h w) (ix4 0 j h w) (by
    rw [Shape.rowMajor_val_four, Shape.rowMajor_val_three]
    show ((0 * 3 + j.val) * 512 + h.val) * 512 + w.val = (j.val * 512 + h.val) * 512 + w.val
    omega)

/-- ENTRY j OF WHAT THE BODY STORES is the cross entropy of plane j of its two blocks. -/
theorem pay_apply (v0 v2 : Vec Ideal S1x3x512x512 .f32) (j : Fin 3) :
    k0_pay1 (F := Ideal) v0 v2 (ix4 0 0 0 j) = planeCE (fun h w => v0 (ix4 0 j h w)) (fun h w => v2 (ix4 0 j h w)) := by
  rw [pay_eq]
  refine (shapeCast_apply _ shapeCasts_S3_S1x1x1x3 (ix4 0 0 0 j) (ix1 j) ?_).trans ((blockCE_apply _ _ j).trans ?_)
  · rw [Shape.rowMajor_val_one, Shape.rowMajor_val_four]
    show j.val = ((0 * 1 + 0) * 1 + 0) * 3 + j.val
    omega
  · exact congrArg₂ planeCE (funext fun h => funext fun w => planes_apply v0 j h w)
      (funext fun h => funext fun w => planes_apply v2 j h w)

end Cert.KernelIdeal.BlockCE

end
-- ==== Proof.FocalMean.lean ====
/-
  The focal weighting and the mean that both programs apply, in the same words, to the [8, 21] matrix of cross entropies:
  `pt = exp (−ce)`, `focal = 0.25 · (1 − pt) ^ 2 · ce`, summed over the classes, summed over the batch, divided by 8.
  It is carried as ONE function of the matrix and never opened: the two programs agree because the matrices going in agree.
-/
import proofs.«100621_j32341103739147_2_alg».proof.Proof.Gen.KernelIdeal
import Idealize.ShloMosaic.PureOps.Ideal

noncomputable section

namespace Cert.FocalMean

open Idealize.ShloMosaic Cert.KernelIdeal Cert.KernelIdeal.Gen

/-- The host operations after the cross entropies, as one function of the [8, 21] matrix. -/
def focalMean (ce : FVec Ideal S8x21 .f32) : FVec Ideal S_ .f32 :=
  Host.divf (F := Ideal)
    (Host.reduceAdd (F := Ideal)
      (Host.reduceAdd (F := Ideal)
        (mulf
          (mulf (broadcastInDim S8x21 ![] bcast_S_S8x21 (constant (F := Ideal) S_ .f32 0x3E800000#32))
            (Host.powf (F := Ideal)
              (subf (broadcastInDim S8x21 ![] bcast_S_S8x21 (constant (F := Ideal) S_ .f32 0x3F800000#32))
                (Host.exp (F := Ideal) (Host.negf (F := Ideal) ce)))
              (broadcastInDim S8x21 ![] bcast_S_S8x21 (constant (F := Ideal) S_ .f32 0x40000000#32))))
          ce)
        (constant (F := Ideal) S_ .f32 0x00000000#32) reducesTo_S8x21_S8_d1 h_S_)
      (constant (F := Ideal) S_ .f32 0x00000000#32) reducesTo_S8_S_d0 h_S_)
    (constant (F := Ideal) S_ .f32 0x41000000#32)

end Cert.FocalMean

end
-- ==== Proof.KernelCE.lean ====
/-
  The kernel's program read as a value: what its result buffer holds after a run, as a function of the two argument arrays.

  The grid has 8 × 7 points. At point (b, ct) the body is handed classes 3·ct, 3·ct + 1, 3·ct + 2 of batch entry b of both
  argument arrays (blocks [1, 3, 512, 512]) and writes back the block [1, 1, 1, 3] at block position (b, ct, 0, 0) of an
  [8, 7, 1, 3] array. Entry j of that block is the cross entropy of plane j of the two blocks (BlockCE.lean), that is of
  plane (b, 3·ct + j) of the arrays (`flushed_eq`: each input block is the array read where the output's rectangle says).
  The 56 blocks tile the array (`cover`), so after the region the array is `G` of the arguments (`final`). The line after
  the region views it [8, 21], and that is the matrix `SoftLabelCE.ce` (`reshape_G`: (b, k) sits at (b, k / 3, 0, k % 3));
  the remaining lines are the focal mean of that matrix (`tail_eq`). `run` is the frame run with this value in its post.
-/
import proofs.«100621_j32341103739147_2_alg».proof.Proof.Gen.KernelIdeal.Frame
import proofs.«100621_j32341103739147_2_alg».proof.Proof.BlockCE
import proofs.«100621_j32341103739147_2_alg».proof.Proof.FocalMean
import Idealize.ShloMosaic.Lib.Pipeline.Value
import Idealize.ShloMosaic.Lib.StableHlo.Run
import Idealize.ShloMosaic.Lib.Tactic

noncomputable section

open scoped BigOperators

namespace Cert.KernelIdeal.KernelCE

open Idealize.ShloMosaic Idealize.ShloMosaic.TcCoe Idealize.SL.Sem Idealize.ShloMosaic.ValueIdx
open Idealize.ShloMosaic.Pipeline (Dat)
open Cert.KernelIdeal Cert.KernelIdeal.Gen Cert.SoftLabelCE Cert.FocalMean

variable (m : (ℓ : Loc nD τ sig) → Buf (Elt Ideal) ℓ) (ρ : Dev nD → PrngReg)

/-- The zero offsets of a whole-block access, as a constant function. -/
theorem hz : (![0, 0, 0, 0] : Fin 4 → Nat) = fun _ => 0 := funext fun a => by fin_cases a <;> rfl

/-- The class an entry (b, ct, 0, j) of the [8, 7, 1, 3] array stands for: 3·ct + j. -/
abbrev cls (i : S8x7x1x3.Idx) : Fin 21 :=
  ⟨3 * (i 1).val + (i 3).val, by have h1 : (i 1).val < 7 := (i 1).isLt; have h3 : (i 3).val < 3 := (i 3).isLt; omega⟩

/-- THE KERNEL'S ARRAY as one function of the argument arrays: entry (b, ct, 0, j) is the cross entropy of batch entry b,
    class 3·ct + j. -/
def G (x t : S8x21x512x512.Idx → EReal) : S8x7x1x3.Idx → EReal := fun i =>
  ceAt x t ⟨(i 0).val, (i 0).isLt⟩ (cls i)

/-- The printed index maps, decided over the 56 grid points: both input windows sit at the output window's block position on
    the batch and class-tile axes and at block 0 on the two plane axes; the output's block position is (b, ct, 0, 0) with
    b ≤ 7 and ct ≤ 6. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (0 : Fin 4) ≤ 7 ∧ win0_2.index t (1 : Fin 4) ≤ 6
    ∧ win0_2.index t (2 : Fin 4) = 0 ∧ win0_2.index t (3 : Fin 4) = 0 :=
  (by decide +kernel : ∀ t : Fin grid0.N, _)

/-- Every block position (b, ct, 0, 0) is some grid point's. -/
theorem idx_onto : ∀ (q0 : Fin 8) (q1 : Fin 7), ∃ t : Fin cfg0.N, win0_2.index t = ![q0.val, q1.val, 0, 0] :=
  (by decide +kernel : ∀ (q0 : Fin 8) (q1 : Fin 7), ∃ t : Fin grid0.N, win0_2.index t = ![q0.val, q1.val, 0, 0])

/-- Entry y = (0, 0, 0, j) of what the body stores is the cross entropy of plane j of its two blocks. -/
theorem pay_at (v0 v2 : Vec Ideal S1x3x512x512 .f32) (y : S1x1x1x3.Idx) :
    k0_pay1 (F := Ideal) v0 v2 y
      = planeCE (fun h w => v0 (ix4 0 ⟨(y 3).val, (y 3).isLt⟩ h w)) (fun h w => v2 (ix4 0 ⟨(y 3).val, (y 3).isLt⟩ h w)) := by
  obtain ⟨a, b, c, j, rfl⟩ : ∃ (a b c : Fin 1) (j : Fin 3), y = ix4 a b c j := ⟨y 0, y 1, y 2, y 3, eq_ix4 y⟩
  obtain rfl : a = 0 := Subsingleton.elim _ _
  obtain rfl : b = 0 := Subsingleton.elim _ _
  obtain rfl : c = 0 := Subsingleton.elim _ _
  exact BlockCE.pay_apply v0 v2 j

/-- WHAT POINT `t` WRITES BACK is block `t` of `G` of the argument arrays: plane j of an input block at the point is plane
    (b, 3·ct + j) of the array, (b, ct) the output block's position. -/
theorem flushed_eq (c : Dev nD) (t : Fin cfg0.N) :
    (dats m 0 c).flushed 2 t = ((cfg0.win 2).blk t).view.read (Elt Ideal) (G (V m c main_arg0) (V m c main_arg1)) := by
  show (cfg0.win 2).cut (grid0.coords t) ((dats m 0 c).after 2 t) = _
  rw [after0_2]
  unfold out0_2
  rw [View.canon_unit_zero hz]
  simp only [View.ld_unit_zero (S := S1x3x512x512) hz]
  obtain ⟨e0, e1, e2, e3, f0, f1, f2, f3, g0, g1, g2, g3⟩ := idx_facts t
  funext y
  show k0_pay1 (F := Ideal) (iblk m c 0 t) (iblk m c 1 t) y
    = G (V m c main_arg0) (V m c main_arg1) (((cfg0.win 2).blk t).view.emb y)
  refine (pay_at (iblk m c 0 t) (iblk m c 1 t) y).trans ?_
  have hy0 : (y 0).val < 1 := (y 0).isLt
  have hy1 : (y 1).val < 1 := (y 1).isLt
  have hy3 : (y 3).val < 3 := (y 3).isLt
  unfold G ceAt
  refine congrArg₂ planeCE (funext fun h => funext fun w => ?_) (funext fun h => funext fun w => ?_)
  · show V m c main_arg0 (((cfg0.win 0).blk t).view.emb (ix4 0 ⟨(y 3).val, (y 3).isLt⟩ h w)) = V m c main_arg0 (ix4 _ _ h w)
    refine congrArg (V m c main_arg0) (funext fun a => Fin.ext ?_)
    match a with
    | ⟨0, _⟩ => show win0_0.index t (0 : Fin 4) * 1 + 1 * 0 = win0_2.index t (0 : Fin 4) * 1 + 1 * (y 0).val; omega
    | ⟨1, _⟩ => show win0_0.index t (1 : Fin 4) * 3 + 1 * (y 3).val = 3 * (win0_2.index t (1 : Fin 4) * 1 + 1 * (y 1).val) + (win0_2.index t (3 : Fin 4) * 3 + 1 * (y 3).val); omega
    | ⟨2, _⟩ => show win0_0.index t (2 : Fin 4) * 512 + 1 * h.val = h.val; omega
    | ⟨3, _⟩ => show win0_0.index t (3 : Fin 4) * 512 + 1 * w.val = w.val; omega
  · show V m c main_arg1 (((cfg0.win 1).blk t).view.emb (ix4 0 ⟨(y 3).val, (y 3).isLt⟩ h w)) = V m c main_arg1 (ix4 _ _ h w)
    refine congrArg (V m c main_arg1) (funext fun a => Fin.ext ?_)
    match a with
    | ⟨0, _⟩ => show win0_1.index t (0 : Fin 4) * 1 + 1 * 0 = win0_2.index t (0 : Fin 4) * 1 + 1 * (y 0).val; omega
    | ⟨1, _⟩ => show win0_1.index t (1 : Fin 4) * 3 + 1 * (y 3).val = 3 * (win0_2.index t (1 : Fin 4) * 1 + 1 * (y 1).val) + (win0_2.index t (3 : Fin 4) * 3 + 1 * (y 3).val); omega
    | ⟨2, _⟩ => show win0_1.index t (2 : Fin 4) * 512 + 1 * h.val = h.val; omega
    | ⟨3, _⟩ => show win0_1.index t (3 : Fin 4) * 512 + 1 * w.val = w.val; omega

/-- An index of the array is in point `t`'s block iff each coordinate is in the block's range on its axis. -/
theorem mem_blk (t : Fin cfg0.N) (i : S8x7x1x3.Idx) :
    i ∈ ((cfg0.win 2).blk t).view.set ↔ ∀ a : Fin 4, win0_2.index t a * S1x1x1x3.size a ≤ (i a).val ∧ (i a).val < win0_2.index t a * S1x1x1x3.size a + S1x1x1x3.size a := by
  show i ∈ ((View.whole main_v0).slice (win0_2.rect t)).set ↔ _
  rw [View.set_slice_whole, Rect.mem_set_unit]
  exact Iff.rfl

/-- Every entry (b, ct, 0, j) of the array is in the block of the grid point (b, ct). -/
theorem cover (i : S8x7x1x3.Idx) : ∃ t : Fin cfg0.N, (cfg0.win 2).flush t = true ∧ i ∈ ((cfg0.win 2).blk t).view.set := by
  have hi0 : (i 0).val < 8 := (i 0).isLt
  have hi1 : (i 1).val < 7 := (i 1).isLt
  have hi2 : (i 2).val < 1 := (i 2).isLt
  have hi3 : (i 3).val < 3 := (i 3).isLt
  obtain ⟨t, ht⟩ := idx_onto ⟨(i 0).val, hi0⟩ ⟨(i 1).val, hi1⟩
  have q0 : win0_2.index t (0 : Fin 4) = (i 0).val := congrFun ht 0
  have q1 : win0_2.index t (1 : Fin 4) = (i 1).val := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 1 ≤ (i 2).val ∧ (i 2).val < win0_2.index t (2 : Fin 4) * 1 + 1; omega
  | ⟨3, _⟩ => show win0_2.index t (3 : Fin 4) * 3 ≤ (i 3).val ∧ (i 3).val < win0_2.index t (3 : Fin 4) * 3 + 3; omega

/-- THE ARRAY after the region is `G` of the argument arrays. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

/-- Viewed [8, 21] — entry (b, k) is entry (b, k / 3, 0, k % 3) — the array is the matrix of cross entropies. -/
theorem reshape_G (x t : S8x21x512x512.Idx → EReal) :
    shapeCast S8x21 (G x t) shapeCasts_S8x7x1x3_S8x21 = ce x t := by
  funext p
  obtain ⟨b, k, rfl⟩ : ∃ (b : Fin 8) (k : Fin 21), p = ix2 b k := ⟨p 0, p 1, eq_ix2 p⟩
  rw [ce_ix2]
  have hk : k.val < 21 := k.isLt
  refine (shapeCast_apply _ shapeCasts_S8x7x1x3_S8x21 (ix2 b k)
    (ix4 b (⟨k.val / 3, by omega⟩ : Fin 7) (0 : Fin 1) (⟨k.val % 3, Nat.mod_lt _ (by decide)⟩ : Fin 3)) ?_).trans ?_
  · rw [Shape.rowMajor_val_four, Shape.rowMajor_val_two]
    show ((b.val * 7 + k.val / 3) * 1 + 0) * 3 + k.val % 3 = b.val * 21 + k.val
    omega
  · exact congrArg (ceAt x t b) (Fin.ext (by show 3 * (k.val / 3) + k.val % 3 = k.val; omega))

/-- The result buffer after the lines that follow the region. -/
theorem tail_eq (c : Dev nD) :
    Pipeline.afterTail₀ cfgs (dats m) 0 (V0 m) [hostOps1] c main_v13
      = focalMean (ce (V m c main_arg0) (V m c main_arg1)) := by
  have hA : Pipeline.withArrays (cfgs 0).spec c (V0 m c) (fun w => (dats m 0 c).arrAt w (cfgs 0).N) (Proc.devRef .tc main_v0)
      = G (V m c main_arg0) (V m c main_arg1) :=
    (Pipeline.withArrays_arr spec0 launch0.win.arr_inj c _ _ 2).trans (final m c)
  unfold Pipeline.afterTail₀
  show StableHlo.after hostOps1 _ (Proc.devRef .tc main_v13) = _
  after_results
  rw [hA, ← reshape_G]
  rfl

/-- The result buffer is none of the pipeline's arrays. -/
theorem result_rest : main_v13 ∈ Pipeline.restRefs sig (cfgs 0).spec :=
  Pipeline.mem_restRefs_of main_v13 rfl (by decide)

/-- THE RUN, READ: every weakly fair execution of the kernel's program terminates with its result buffer at the focal mean of
    the cross entropies of the two argument arrays, and the arguments as they were. -/
theorem run : θ_run defs (onTc (τ := τ) (main (F := Ideal))) ⟨m, fun _ => 0, ρ⟩ fun r => ∀ c : Dev nD,
      r.2.mem ((c.tc : Thread nD τ).loc main_v13)
        = focalMean (ce (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v13 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelCE

end
-- ==== Proof.lean ====
/-
  The certificate of a focal loss over soft-label cross entropies: a kernel that computes, block by block over an 8 × 7 grid,
  the [8, 21] matrix of per-(batch, class) cross entropies of scores `pred` against soft labels `target`
  (f32[8, 21, 512, 512] each), followed by the focal weighting on the host, against a jnp reference that computes the same
  matrix with whole-array operations (jax.nn.log_softmax, sums, a mean) and applies the same focal weighting.

  At the ideal values both matrices are ONE function of the two arrays, `SoftLabelCE.ce`: for plane (b, k), the sum over the
  rows h of `−∑ w, t h w · (x h w − M h − log ∑ w', exp (x h w' − M h))`, `M h` the row's maximum, divided by 512. The
  kernel's side is KernelCE.lean (its array after the region, viewed [8, 21]) over BlockCE.lean (one block's three numbers);
  the reference's side is RefCE.lean, over its run and its operations read at an index. The two spell the row's maximum
  slightly differently (the reference joins it once more with minus infinity, where it started: no change), the negation
  differently (`0 − s` against `−s`), and sum in different groupings (lane and row sums in the kernel, array reductions in
  the reference): all of these are equalities on the extended reals with no finiteness needed, so the precondition is not
  used. The focal weighting and the mean over the batch are the same host operations on both sides, carried as one function
  `FocalMean.focalMean` of the matrix and never opened.

  The three frames are the generated ones (the reference's: its run with the result dropped); the idealization rewrote no
  operation, so `preserves` is trivial.
-/
import proofs.«100621_j32341103739147_2_alg».proof.Defs
import proofs.«100621_j32341103739147_2_alg».proof.Proof.Gen.Kernel
import proofs.«100621_j32341103739147_2_alg».proof.Proof.Gen.Kernel.Skeleton
import proofs.«100621_j32341103739147_2_alg».proof.Proof.Gen.Kernel.Launch
import proofs.«100621_j32341103739147_2_alg».proof.Proof.Gen.Kernel.Points
import proofs.«100621_j32341103739147_2_alg».proof.Proof.Gen.Kernel.Frame
import proofs.«100621_j32341103739147_2_alg».proof.Proof.Gen.KernelIdeal
import proofs.«100621_j32341103739147_2_alg».proof.Proof.Gen.KernelIdeal.Skeleton
import proofs.«100621_j32341103739147_2_alg».proof.Proof.Gen.KernelIdeal.Launch
import proofs.«100621_j32341103739147_2_alg».proof.Proof.Gen.KernelIdeal.Points
import proofs.«100621_j32341103739147_2_alg».proof.Proof.Gen.KernelIdeal.Frame
import proofs.«100621_j32341103739147_2_alg».proof.Proof.Gen.ReferenceIdeal
import proofs.«100621_j32341103739147_2_alg».proof.Proof.Gen.Pre_finite_inputs
import proofs.«100621_j32341103739147_2_alg».proof.Proof.RefRunPatched
import proofs.«100621_j32341103739147_2_alg».proof.Proof.RefReadPatched
import proofs.«100621_j32341103739147_2_alg».proof.Proof.RefCE
import proofs.«100621_j32341103739147_2_alg».proof.Proof.KernelCE
import proofs.«100621_j32341103739147_2_alg».proof.Proof.FocalMean
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The reference's result is the focal mean of its [8, 21] matrix: the lines after the matrix are the shared ones. -/
theorem ref_result (x0 x1 : (⟨Cert.ReferenceIdeal.S8x21x512x512, .f32⟩ : BufTy).Contents (Elt Ideal)) :
    Cert.ReferenceIdeal.ReadP.val_main_v18 (F := Ideal) x0 x1
      = Cert.FocalMean.focalMean (Cert.ReferenceIdeal.ReadP.val_main_v6 (F := Ideal) x0 x1) := rfl

/-- Both programs end with their result at the focal mean of `SoftLabelCE.ce` of the arguments. -/
theorem algebraic : Cert.algebraic_KernelIdeal_ReferenceIdeal := by
  intro m ρ m' ρ' _ hagree
  refine ⟨_, Cert.KernelIdeal.KernelCE.run m ρ, ?_⟩
  refine (θ_run Cert.ReferenceIdeal.defs _ _).mono (fun _ h c => ⟨?_, (h c).2⟩)
    (Cert.ReferenceIdeal.RunP.run (F := Ideal) m' ρ')
  rw [(h c).1, Cert.ReferenceIdeal.ReadP.val_main_v18_eq, ref_result, Cert.ReferenceIdeal.RefCE.ce_eq,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
